-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x64x64 : Shape := ⟨3, ![64, 64, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_

variable [Facts]

def fn {F : FTy → Type} [FloatOps F] (main_arg0 : FVec F S1024x64 .f32) (main_arg1 : FVec F S64x64x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x64x64 .f32 := Host.absf main_arg1
  let main_cst_0 : FVec F S_ .f32 := constant S_ .f32 0x7F800000#32
  let main_v5 : FVec F S64x64x64 .f32 := broadcastInDim S64x64x64 ![] bcast_S_S64x64x64 main_cst_0
  let main_v6 : IVec S64x64x64 1 := cmpf .olt main_v4 main_v5
  let main_c_1 : IVec S_ 1 := constantI S_ 1 1#1
  let main_v7 : IVec S_ 1 := (fun x v => Host.reduce IntOp.andi x v reducesTo_S64x64x64_S_d0_1_2 h_S_) main_v6 main_c_1
  let main_v8 : IVec S_ 1 := andi main_v3 main_v7
  main_v8
-- ==== Kernel.lean ====
abbrev S1024x64 : Shape := ⟨2, ![1024, 64]⟩
abbrev S64x64x64 : Shape := ⟨3, ![64, 64, 64]⟩
abbrev S4096x64 : Shape := ⟨2, ![4096, 64]⟩
abbrev S_ : Shape := ⟨0, ![]⟩
abbrev S4096 : Shape := ⟨1, ![4096]⟩
abbrev S1x4096 : Shape := ⟨2, ![1, 4096]⟩
abbrev S1024x4096 : Shape := ⟨2, ![1024, 4096]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S1024x64x64 : Shape := ⟨3, ![1024, 64, 64]⟩

abbrev nBuf : Space → Nat
  | .hbm => 9
  | .vmem => 6
  | .smem => 0
  | _ => 0

abbrev bufTy : (tb : Table) → Fin (tcTables nBuf tb) → BufTy
  | .hbm, ⟨0, _⟩ => ⟨S1024x64, .f32⟩
  | .hbm, ⟨1, _⟩ => ⟨S64x64x64, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S1024x4096, .f32⟩
  | .hbm, ⟨8, _⟩ => ⟨S1024x64x64, .f32⟩
  | .local _ .vmem, ⟨0, _⟩ => ⟨S256x64, .f32⟩
  | .local _ .vmem, ⟨1, _⟩ => ⟨S256x64, .f32⟩
  | .local _ .vmem, ⟨2, _⟩ => ⟨S4096x64, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x64x64_S4096x64 : S64x64x64.ShapeCasts S4096x64
  reducesTo_S4096x64_S4096_d1 : S4096x64.ReducesTo [1] S4096
  h_S_ : 0 < S_.numel
  bcast_S4096_S1x4096_1 : S4096.BroadcastsInDim S1x4096 (![1] : Fin 1 → Fin S1x4096.rank)
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x64_S256 : S256x64.Reduces [1] S256
  shapeCasts_S256_S256x1 : S256.ShapeCasts S256x1
  bitsLt_bf16_f32 : FTy.bits .bf16 < FTy.bits .f32
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S1024x4096_S1024x64x64 : S1024x4096.ShapeCasts S1024x64x64
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S1024x64.size a
  hwx0_0 : ∀ i : grid0.Coords, EltTy.bits .f32 = 32 ∨ (Rect.block (s := S1024x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S1024x4096.size a
  hwx0_3 : ∀ i : grid0.Coords, EltTy.bits .f32 = 32 ∨ (Rect.block (s := S1024x4096) S256x4096.size (cc0_transform_3 i) (hinb0_3 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64 : Shape := ⟨2, ![1024, 64]⟩
abbrev S64x64x64 : Shape := ⟨3, ![64, 64, 64]⟩
abbrev S1x64x64x64 : Shape := ⟨4, ![1, 64, 64, 64]⟩
abbrev S1024x1x1x64 : Shape := ⟨4, ![1024, 1, 1, 64]⟩
abbrev S1024x64x64x64 : Shape := ⟨4, ![1024, 64, 64, 64]⟩
abbrev S_ : Shape := ⟨0, ![]⟩
abbrev S1024x64x64 : Shape := ⟨3, ![1024, 64, 64]⟩

abbrev nBuf : Space → Nat
  | .hbm => 10
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x64x64, .f32⟩
  | .hbm, ⟨2, _⟩ => ⟨S1x64x64x64, .f32⟩
  | .hbm, ⟨3, _⟩ => ⟨S1024x1x1x64, .f32⟩
  | .hbm, ⟨4, _⟩ => ⟨S1024x64x64x64, .f32⟩
  | .hbm, ⟨5, _⟩ => ⟨S1024x64x64x64, .f32⟩
  | .hbm, ⟨6, _⟩ => ⟨S1024x64x64x64, .f32⟩
  | .hbm, ⟨7, _⟩ => ⟨S1024x64x64x64, .f32⟩
  | .hbm, ⟨8, _⟩ => ⟨S_, .f32⟩
  | .hbm, ⟨9, _⟩ => ⟨S1024x64x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S64x64x64_S1x64x64x64_1_2_3 : S64x64x64.BroadcastsInDim S1x64x64x64 (![1, 2, 3] : Fin 3 → Fin S1x64x64x64.rank)
  bcast_S1024x64_S1024x1x1x64_0_3 : S1024x64.BroadcastsInDim S1024x1x1x64 (![0, 3] : Fin 2 → Fin S1024x1x1x64.rank)
  bcast_S1x64x64x64_S1024x64x64x64_0_1_2_3 : S1x64x64x64.BroadcastsInDim S1024x64x64x64 (![0, 1, 2, 3] : Fin 4 → Fin S1024x64x64x64.rank)
  bcast_S1024x1x1x64_S1024x64x64x64_0_1_2_3 : S1024x1x1x64.BroadcastsInDim S1024x64x64x64 (![0, 1, 2, 3] : Fin 4 → Fin S1024x64x64x64.rank)
  reducesTo_S1024x64x64x64_S1024x64x64_d3 : S1024x64x64x64.ReducesTo [3] S1024x64x64
  h_S_ : 0 < S_.numel

variable [Facts₀]

class Facts : Prop extends Facts₀ where

variable [Facts]
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KernelBody.lean ====
/-
  The kernel's body read at one entry of its output block.

  On a block of 256 input rows `x`, all 4096 weight rows `w` and the row of weight norms `n`, the body computes at `(p, q)`
      max ((∑ k, x[p,k]·x[p,k] + n[0,q]) - 2 · ∑ k, x[p,k]·w[q,k]) 0 :
  the row's sum of squares (a lane reduction, viewed as a column and repeated along the row), plus the weight row's norm
  (one row repeated down the block), minus twice the cross term (a matrix product contracting the feature axis of both
  operands; the narrowing to sixteen bits is the identity on extended reals), clamped at zero.
-/
import proofs.«159707_j85787676770973_2_alg».proof.Proof.Gen.KernelIdeal.Skeleton
import proofs.«159707_j85787676770973_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- The dimension numbers of the cross term: the feature axis (axis 1) of both operands is contracted. -/
abbrev crossDims : DotDims S256x64 S4096x64 S256x4096 := dot_S256x64_S4096x64_S256x4096_1_1_0_0_n_n

/-! ## The operand indices of the cross term, coordinate by coordinate -/

theorem lhs_row (i : S256x4096.Idx) (q : crossDims.contr.Idx) : (crossDims.lhsIdx i q 0).val = (i 0).val := by
  unfold DotDims.lhsIdx
  rw [dif_neg (show ¬(0 : Fin S256x64.rank) ∈ crossDims.lhsBatch by decide),
    dif_pos (show (0 : Fin S256x64.rank) ∈ crossDims.lhsNonContracting by decide)]
  rfl
theorem lhs_feat (i : S256x4096.Idx) (q : crossDims.contr.Idx) :
    (crossDims.lhsIdx i q 1).val = (q ⟨0, by decide⟩).val :=
  crossDims.lhsIdx_val_of_single rfl i q
theorem rhs_row (i : S256x4096.Idx) (q : crossDims.contr.Idx) : (crossDims.rhsIdx i q 0).val = (i 1).val := by
  unfold DotDims.rhsIdx
  rw [dif_neg (show ¬(0 : Fin S4096x64.rank) ∈ crossDims.rhsBatch by decide),
    dif_pos (show (0 : Fin S4096x64.rank) ∈ crossDims.rhsNonContracting by decide)]
  rfl
theorem rhs_feat (i : S256x4096.Idx) (q : crossDims.contr.Idx) :
    (crossDims.rhsIdx i q 1).val = (q ⟨0, by decide⟩).val :=
  crossDims.rhsIdx_val_of_single rfl i q

/-- The cross term at `(p, q)`: the product of row `p` of the left operand with row `q` of the right one. -/
theorem cross_apply (a : FVec Ideal S256x64 .bf16) (b : FVec Ideal S4096x64 .bf16) (p : Fin 256) (q : Fin 4096) :
    matmul crossDims none a b (constant (F := Ideal) S256x4096 .f32 0x00000000#32) (ix2 p q)
      = ∑ k : Fin 64, a (ix2 p k) * b (ix2 q k) := by
  simp only [matmul]
  rw [Ideal.matmul_constant_zero_apply, ← Equiv.sum_comp (ValueIdx.contrEquiv1 crossDims 64 rfl rfl).symm]
  refine Finset.sum_congr rfl fun k _ => ?_
  have hk := ValueIdx.contrEquiv1_symm_val crossDims 64 rfl rfl k
  have el : crossDims.lhsIdx (ix2 p q) ((ValueIdx.contrEquiv1 crossDims 64 rfl rfl).symm k) = ix2 p k :=
    funext fun c => Fin.ext (by
      match c with
      | ⟨0, _⟩ => exact lhs_row _ _
      | ⟨1, _⟩ => exact (lhs_feat _ _).trans hk)
  have er : crossDims.rhsIdx (ix2 p q) ((ValueIdx.contrEquiv1 crossDims 64 rfl rfl).symm k) = ix2 q k :=
    funext fun c => Fin.ext (by
      match c with
      | ⟨0, _⟩ => exact rhs_row _ _
      | ⟨1, _⟩ => exact (rhs_feat _ _).trans hk)
  rw [el, er]

/-- A row's lane sum, viewed as a column and repeated along the row, reads the sum over that row's 64 lanes. -/
theorem rowsum_apply (v : FVec Ideal S256x64 .f32) (h : S256x64.Reduces [1] S256)
    (hacc : (0x00000000#32 : BitVec 32) = 0x00000000#32) (hc : S256.ShapeCasts S256x1) (hb : S256x1.Broadcasts S256x4096)
    (p : Fin 256) (q : Fin 4096) :
    broadcastTo S256x4096 (shapeCast S256x1 (multiReduction (F := Ideal) .add [1] S256 v 0x00000000#32 h (.inl rfl) hacc) hc) hb (ix2 p q)
      = ∑ k : Fin 64, v (ix2 p k) := by
  refine (Cert.LibLayout.broadcastTo_a1_ab_apply _ hb p q).trans ?_
  refine (Cert.LibLayout.shapeCast_a_a1_apply _ hc p 0).trans ?_
  refine (Ideal.multiReduction_add_single v 0x00000000#32 h (.inl rfl) hacc (ix1 p)).trans ?_
  refine Finset.sum_congr rfl fun k _ => congrArg v ?_
  funext c
  match c with
  | ⟨0, _⟩ => rfl
  | ⟨1, _⟩ => rfl

/-- The row of weight norms, repeated down the block, reads its entry of column `q`. -/
theorem normrow_apply (n : FVec Ideal S1x4096 .f32) (hc : S1x4096.ShapeCasts S1x4096) (hb : S1x4096.Broadcasts S256x4096)
    (p : Fin 256) (q : Fin 4096) :
    broadcastTo S256x4096 (shapeCast S1x4096 n hc) hb (ix2 p q) = n (ix2 (0 : Fin 1) q) := by
  rw [shapeCast_self]
  exact broadcastTo_1b_ab_apply n hb p q

/-- THE BODY AT AN ENTRY. -/
theorem pay_apply (x : Vec Ideal S256x64 .f32) (w : Vec Ideal S4096x64 .f32) (n : Vec Ideal S1x4096 .f32)
    (p : Fin 256) (q : Fin 4096) :
    k0_pay1 (F := Ideal) x w n (ix2 p q)
      = max ((∑ k : Fin 64, x (ix2 p k) * x (ix2 p k) + n (ix2 (0 : Fin 1) q))
          - Ideal.ofBits .f32 0x40000000#32 * ∑ k : Fin 64, x (ix2 p k) * w (ix2 q k))
        (Ideal.ofBits .f32 0x00000000#32) := by
  unfold k0_pay1
  refine congrArg₂ max (congrArg₂ (· - ·) (congrArg₂ (· + ·) ?_ ?_) (congrArg₂ (· * ·) rfl ?_)) rfl
  · exact rowsum_apply (mulf x x) _ _ _ _ p q
  · exact normrow_apply n _ _ p q
  · refine (cross_apply _ _ p q).trans ?_
    rw [shapeCast_self]
    rfl

end Cert.KernelIdeal.Body

end
-- ==== Proof.KernelTable.lean ====
/-
  The kernel's output array after the run, as one function of the arrays the kernel finds.

  Grid point `t` works on input rows `256·t … 256·t + 255` with all weight rows and the whole row of norms, and writes
  back rows `256·t … 256·t + 255` of the output. So the output's entry `(b, q)` is the body's value on input row `b`,
  regrouped weight row `q` and norm `q`, and the four blocks tile the `1024 × 4096` array: row `b` lies in block `b / 256`.
-/
import proofs.«159707_j85787676770973_2_alg».proof.Proof.Gen.KernelIdeal.Frame
import proofs.«159707_j85787676770973_2_alg».proof.Proof.KernelBody
import Idealize.ShloMosaic.Lib.Pipeline.Value
import Idealize.ShloMosaic.Lib.ValueIdx

noncomputable section

namespace Cert.KernelIdeal.Table

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's value on input row `b`, weight row `q` and norm `q`. -/
def entry (x : S1024x64.Idx → EReal) (w : S4096x64.Idx → EReal) (n : S1x4096.Idx → EReal) (b : Fin 1024) (q : Fin 4096) : EReal :=
  max ((∑ k : Fin 64, x (ix2 b k) * x (ix2 b k) + n (ix2 (0 : Fin 1) q))
      - Ideal.ofBits .f32 0x40000000#32 * ∑ k : Fin 64, x (ix2 b k) * w (ix2 q k))
    (Ideal.ofBits .f32 0x00000000#32)

/-- The output array: `entry` at every index. -/
def table (x : S1024x64.Idx → EReal) (w : S4096x64.Idx → EReal) (n : S1x4096.Idx → EReal) : S1024x4096.Idx → EReal :=
  fun i => entry x w n ⟨(i 0).val, idx2_lt0 i⟩ ⟨(i 1).val, idx2_lt1 i⟩

theorem table_apply (x : S1024x64.Idx → EReal) (w : S4096x64.Idx → EReal) (n : S1x4096.Idx → EReal) (b : Fin 1024) (q : Fin 4096) :
    table x w n (ix2 b q) = entry x w n b q := rfl

/-- A block of the body's payload is a block of `table`: on a block `x` holding rows `256·r …` of `X`, with all of `W`
    and `N`, the payload at `j` is `table` at the index `256·r` rows further down. -/
theorem block_entry (X : S1024x64.Idx → EReal) (W : S4096x64.Idx → EReal) (N : S1x4096.Idx → EReal)
    (x : Vec Ideal S256x64 .f32) (w : Vec Ideal S4096x64 .f32) (n : Vec Ideal S1x4096 .f32) (r : ℕ) (hr : r < 4)
    (hx : ∀ (p : Fin 256) (k : Fin 64), x (ix2 p k) = X (ix2 (⟨r * 256 + p.val, by omega⟩ : Fin 1024) k))
    (hw : w = W) (hn : n = N) (j : S256x4096.Idx) (i : S1024x4096.Idx)
    (hi0 : (i 0).val = r * 256 + (j 0).val) (hi1 : (i 1).val = (j 1).val) :
    k0_pay1 (F := Ideal) x w n j = table X W N i := by
  subst hw hn
  have hj : j = ix2 (j 0) (j 1) := eq_ix2 j
  have hb : (⟨(i 0).val, idx2_lt0 i⟩ : Fin 1024) = ⟨r * 256 + (j 0).val, by have := idx2_lt0 j; omega⟩ := Fin.ext hi0
  have hq : (⟨(i 1).val, idx2_lt1 i⟩ : Fin 4096) = j 1 := Fin.ext hi1
  rw [hj]
  refine (Body.pay_apply x w n (j 0) (j 1)).trans ?_
  unfold table entry
  rw [hb, hq]
  refine congrArg₂ max (congrArg₂ (· - ·) (congrArg₂ (· + ·) (Finset.sum_congr rfl fun k _ => ?_) rfl)
    (congrArg₂ (· * ·) rfl (Finset.sum_congr rfl fun k _ => ?_))) rfl
  · exact congrArg₂ (· * ·) (hx (j 0) k) (hx (j 0) k)
  · exact congrArg₂ (· * ·) (hx (j 0) k) rfl

/-! ## The windows' blocks at a point -/

/-- The printed index maps over the grid: the input rows and the output rows move with the point, the weights and the
    norms stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `256·t + p` of the input array. -/
theorem xblk_apply (c : Dev nD) (t : Fin cfg0.N) (p : Fin 256) (k : Fin 64) (b : Fin 1024) (hb : b.val = t.val * 256 + p.val) :
    (iblk m c 0 t : Vec Ideal S256x64 .f32) (ix2 p k) = (V m c main_arg0 : S1024x64.Idx → EReal) (ix2 b k) := by
  obtain ⟨e0, e1, -⟩ := idx_facts t
  unfold iblk
  rw [View.read_apply]
  show (V m c main_arg0 : S1024x64.Idx → EReal) _ = _
  refine congrArg (V m c main_arg0 : S1024x64.Idx → EReal) (funext fun a => Fin.ext ?_)
  match a with
  | ⟨0, _⟩ => show win0_0.index t (0 : Fin 2) * 256 + 1 * p.val = b.val; rw [e0, hb]; omega
  | ⟨1, _⟩ => show win0_0.index t (1 : Fin 2) * 64 + 1 * k.val = k.val; rw [e1]; omega

/-- The weights' block at any point is the whole array. -/
theorem wblk_eq (c : Dev nD) (t : Fin cfg0.N) :
    (iblk m c 1 t : Vec Ideal S4096x64 .f32) = (V m c main_v0 : S4096x64.Idx → EReal) := by
  obtain ⟨-, -, e2, e3, -⟩ := idx_facts t
  funext y
  unfold iblk
  rw [View.read_apply]
  show (V m c main_v0 : S4096x64.Idx → EReal) _ = _
  refine congrArg (V m c main_v0 : S4096x64.Idx → EReal) (funext fun a => Fin.ext ?_)
  match a with
  | ⟨0, _⟩ => show win0_1.index t (0 : Fin 2) * 4096 + 1 * (y 0).val = (y 0).val; rw [e2]; omega
  | ⟨1, _⟩ => show win0_1.index t (1 : Fin 2) * 64 + 1 * (y 1).val = (y 1).val; rw [e3]; omega

/-- The norms' block at any point is the whole row. -/
theorem nblk_eq (c : Dev nD) (t : Fin cfg0.N) :
    (iblk m c 2 t : Vec Ideal S1x4096 .f32) = (V m c main_v3 : S1x4096.Idx → EReal) := by
  obtain ⟨-, -, -, -, e4, e5, -⟩ := idx_facts t
  funext y
  unfold iblk
  rw [View.read_apply]
  show (V m c main_v3 : S1x4096.Idx → EReal) _ = _
  refine congrArg (V m c main_v3 : S1x4096.Idx → EReal) (funext fun a => Fin.ext ?_)
  match a with
  | ⟨0, _⟩ => show win0_2.index t (0 : Fin 2) * 1 + 1 * (y 0).val = (y 0).val; rw [e4]; omega
  | ⟨1, _⟩ => show win0_2.index t (1 : Fin 2) * 4096 + 1 * (y 1).val = (y 1).val; rw [e5]; omega

/-! ## What a point writes back, the cover, the array -/

/-- WHAT POINT `t` WRITES BACK is block `t` of `table` of the arrays as the kernel finds them. -/
theorem flushed_eq (c : Dev nD) (t : Fin cfg0.N) :
    (dats m 0 c).flushed 3 t = ((cfg0.win 3).blk t).view.read (Elt Ideal)
      (table (V m c main_arg0) (V m c main_v0) (V m c main_v3)) := by
  have ht : t.val < 4 := lt_of_lt_of_eq t.isLt (N_0 : cfg0.N = 4)
  obtain ⟨-, -, -, -, -, -, e6, e7⟩ := idx_facts t
  show (cfg0.win 3).cut (grid0.coords t) ((dats m 0 c).after 3 t) = _
  rw [after0_3]
  unfold out0_3
  rw [View.canon_unit_zero hz]
  simp only [View.ld_unit_zero (S := S256x64) hz, View.ld_unit_zero (S := S4096x64) hz, View.ld_unit_zero (S := S1x4096) hz]
  funext j
  rw [View.read_apply]
  refine block_entry (V m c main_arg0) (V m c main_v0) (V m c main_v3) (iblk m c 0 t) (iblk m c 1 t) (iblk m c 2 t)
    t.val ht (fun p k => xblk_apply m c t p k _ rfl) (wblk_eq m c t) (nblk_eq m c t) j _ ?_ ?_
  · show win0_3.index t (0 : Fin 2) * 256 + 1 * (j 0).val = t.val * 256 + (j 0).val
    rw [e6]; omega
  · show win0_3.index t (1 : Fin 2) * 4096 + 1 * (j 1).val = (j 1).val
    rw [e7]; omega

/-- An index of the output array is in point `t`'s block iff each coordinate is in the block's range on its axis. -/
theorem mem_blk (t : Fin cfg0.N) (i : S1024x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v4).slice (win0_3.rect t)).set ↔ _
  rw [View.set_slice_whole, Rect.mem_set_unit]
  exact Iff.rfl

/-- Every index is in the block of the point its row falls in. -/
theorem cover (i : S1024x4096.Idx) :
    ∃ t : Fin cfg0.N, (cfg0.win 3).flush t = true ∧ i ∈ ((cfg0.win 3).blk t).view.set := by
  have hi0 : (i 0).val < 1024 := idx2_lt0 i
  have hi1 : (i 1).val < 4096 := idx2_lt1 i
  have hN : cfg0.N = 4 := N_0
  obtain ⟨t, htv⟩ : ∃ t : Fin cfg0.N, t.val = (i 0).val / 256 := ⟨⟨(i 0).val / 256, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e6, htv]; omega
  | ⟨1, _⟩ =>
    show win0_3.index t (1 : Fin 2) * 4096 ≤ (i 1).val ∧ (i 1).val < win0_3.index t (1 : Fin 2) * 4096 + 4096
    rw [e7]; omega

/-- THE OUTPUT ARRAY after the run. -/
theorem final (c : Dev nD) :
    (dats m 0 c).arrAt 3 cfg0.N = table (V m c main_arg0) (V m c main_v0) (V m c main_v3) :=
  (dats m 0 c).arrAt_eq_of_cover 3 _ (fun t _ => flushed_eq m c t) cover

end Cert.KernelIdeal.Table

end
-- ==== Proof.HostPrefix.lean ====
/-
  The two arrays the host computes before the kernel is launched, read at an entry.

  The weights `w[s, t, k]` are regrouped row-major into `4096` rows `w'[q, k]` with `q = s · 64 + t`; the row of weight
  norms holds, in column `q`, the initial value zero plus the sum over the 64 features of `w'[q, k] · w'[q, k]`.
-/
import proofs.«159707_j85787676770973_2_alg».proof.Proof.Gen.KernelIdeal.Frame
import proofs.«159707_j85787676770973_2_alg».proof.Proof.LibLayout
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostPrefix

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The regrouped weights, as a function of the weights. -/
def rows (w : S64x64x64.Idx → EReal) : S4096x64.Idx → EReal :=
  shapeCast S4096x64 w shapeCasts_S64x64x64_S4096x64

/-- The row of weight norms, as a function of the weights. -/
def norms (w : S64x64x64.Idx → EReal) : S1x4096.Idx → EReal :=
  broadcastInDim S1x4096 ![1] bcast_S4096_S1x4096_1
    (Host.reduceAdd (F := Ideal) (mulf (rows w) (rows w)) (constant (F := Ideal) S_ .f32 0x00000000#32) reducesTo_S4096x64_S4096_d1 h_S_)

/-- The kernel finds the regrouped weights in its second operand. -/
theorem V_rows (c : Dev nD) :
    (V m c main_v0 : S4096x64.Idx → EReal) = rows (m ((c : Thread nD τ).loc main_arg1)) := by
  show StableHlo.after hostOps0 (fun b => m (c, b)) (Proc.devRef .tc main_v0) = _
  after_results
  rfl

/-- The kernel finds the row of weight norms in its third operand. -/
theorem V_norms (c : Dev nD) :
    (V m c main_v3 : S1x4096.Idx → EReal) = norms (m ((c : Thread nD τ).loc main_arg1)) := by
  show StableHlo.after hostOps0 (fun b => m (c, b)) (Proc.devRef .tc main_v3) = _
  after_results
  rfl

/-- Row `q = s · 64 + t` of the regrouped weights is weight row `(s, t)`. -/
theorem rows_apply (w : S64x64x64.Idx → EReal) (q : Fin 4096) (k : Fin 64) (s t : Fin 64) (hq : q.val = s.val * 64 + t.val) :
    rows w (ix2 q k) = w (ix3 s t k) :=
  Cert.LibLayout.shapeCast_abc_dc_apply w shapeCasts_S64x64x64_S4096x64 q k s t hq

/-- Column `q` of the row of norms: zero plus the sum of squares of row `q` of the regrouped weights. -/
theorem norms_apply (w : S64x64x64.Idx → EReal) (q : Fin 4096) :
    norms w (ix2 (0 : Fin 1) q)
      = Ideal.ofBits .f32 0x00000000#32 + ∑ k : Fin 64, rows w (ix2 q k) * rows w (ix2 q k) := by
  unfold norms
  refine (broadcastInDim_apply _ bcast_S4096_S1x4096_1 _ (ix2 (0 : Fin 1) q) (ix1 q) (fun a => ?_)).trans ?_
  · match a with
    | ⟨0, _⟩ =>
      show q.val = if (4096 : Nat) = 1 then 0 else q.val
      rw [if_neg (by decide)]
  · simp only [Host.reduceAdd, Ideal.hostReduceAdd_def]
    rw [Ideal.hostReduceAdd_single reducesTo_S4096x64_S4096_d1 (by decide)]
    refine congrArg₂ (· + ·) rfl (Finset.sum_congr rfl fun k _ => ?_)
    have e : (by decide : S4096x64.Reduces [1] S4096).lift (ix1 q) k = ix2 q k :=
      funext fun a => Fin.ext (by match a with | ⟨0, _⟩ => rfl | ⟨1, _⟩ => rfl)
    rw [e]
    rfl

end Cert.KernelIdeal.HostPrefix

end
-- ==== Proof.ReferenceEntry.lean ====
/-
  The reference program read at one entry.

  The reference broadcasts the weights `w[s, t, k]` and the inputs `x[b, k]` to one rank-4 array, subtracts, squares and
  sums over the last axis from the initial value zero. At the entry `(b, s, t)` that is
  `0 + ∑ k, (w[s, t, k] - x[b, k]) · (w[s, t, k] - x[b, k])` over the 64 coordinates of the feature axis.
-/
import proofs.«159707_j85787676770973_2_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- Entry `(b, s, t)` of the reference's result: the squared distance between weight row `(s, t)` and input row `b`. -/
theorem result_apply (x : S1024x64.Idx → EReal) (w : S64x64x64.Idx → EReal) (b : Fin 1024) (s t : Fin 64) :
    val_main_v6 (F := Ideal) x w (ix3 b s t)
      = Ideal.ofBits .f32 0x00000000#32
        + ∑ k : Fin 64, (w (ix3 s t k) - x (ix2 b k)) * (w (ix3 s t k) - x (ix2 b k)) := by
  have hw : ∀ k : Fin 64, idx_main_v0 (idx_main_v2 (idx_main_v6 (ix3 b s t) k)) = ix3 s t k := fun k =>
    funext fun a => Fin.ext (by match a with | ⟨0, _⟩ => rfl | ⟨1, _⟩ => rfl | ⟨2, _⟩ => rfl)
  have hx : ∀ k : Fin 64, idx_main_v1 (idx_main_v3 (idx_main_v6 (ix3 b s t) k)) = ix2 b k := fun k =>
    funext fun a => Fin.ext (by match a with | ⟨0, _⟩ => rfl | ⟨1, _⟩ => rfl)
  rw [val_main_v6_apply]
  refine congrArg₂ (· + ·) rfl (Finset.sum_congr rfl fun k _ => ?_)
  rw [val_main_v5_apply, val_main_v4_apply, val_main_v2_apply, val_main_v0_apply, val_main_v3_apply,
    val_main_v1_apply, hw k, hx k]
  rfl

end Cert.ReferenceIdeal.RefValue

end
-- ==== Proof.SquaredDistance.lean ====
/-
  The one law that joins the two programs, on real numbers embedded in the extended reals.

  For two real vectors `a` and `b` of one length, the expanded form
  `max ((∑ a² + (0 + ∑ b²)) - 2 · ∑ a·b) 0` is the squared distance `0 + ∑ (b - a)²`:
  termwise `a² + b² - 2ab = (b - a)²`, and a sum of squares is nonnegative, so the clamp at zero does nothing.
  On the extended reals the law needs every entry to be a real number: with an infinite entry the difference
  `b - a` and the expanded form part ways. Also here: the two float words the programs spell, `0` and `2`.
-/
import Idealize.ShloMosaic.PureOps.Ideal
import Idealize.ShloMosaic.PureOps.Ideal.Laws

namespace Cert.SquaredDistance

open Idealize.ShloMosaic

/-- The embedding of the reals into the extended reals commutes with a finite sum. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On the reals: `∑ a² + ∑ b² - 2 ∑ a b = ∑ (b - a)²`. -/
theorem expand_real {n : ℕ} (a b : Fin n → ℝ) :
    (∑ k, a k * a k + ∑ k, b k * b k) - 2 * ∑ k, a k * b k = ∑ k, (b k - a k) * (b k - a k) := by
  rw [Finset.mul_sum, ← Finset.sum_add_distrib, ← Finset.sum_sub_distrib]
  exact Finset.sum_congr rfl fun k _ => by ring

/-- The expanded, clamped form is the squared distance, on real entries. -/
theorem clamp_expand_eq_sum_sq {n : ℕ} (a b : Fin n → ℝ) :
    max ((∑ k, (a k : EReal) * (a k : EReal) + ((0 : EReal) + ∑ k, (b k : EReal) * (b k : EReal)))
        - ((2 : ℝ) : EReal) * ∑ k, (a k : EReal) * (b k : EReal)) (0 : EReal)
      = (0 : EReal) + ∑ k, ((b k : EReal) - (a k : EReal)) * ((b k : EReal) - (a k : EReal)) := by
  have nn : (0 : ℝ) ≤ ∑ k, (b k - a k) * (b k - a k) := Finset.sum_nonneg fun k _ => mul_self_nonneg _
  simp only [← EReal.coe_mul, ← EReal.coe_sub, ← coe_sum, zero_add, ← EReal.coe_add]
  rw [expand_real, max_eq_left (EReal.coe_nonneg.mpr nn)]

/-- The word `0x40000000` is the number two. -/
theorem ofBits_two : Ideal.ofBits .f32 0x40000000#32 = ((2 : ℝ) : EReal) := by
  simp [Ideal.ofBits, Ideal.ieee, -EReal.coe_mul]
  norm_num

end Cert.SquaredDistance
-- ==== Proof.LibSplitLanes.lean ====
/-
  A shape cast that splits the trailing axis of a matrix, read at an index written by its coordinates.

  An `[a, N]` array viewed row-major as `[a, n1, n2]` with `N = n1 · n2` reads, at `(i, s, t)`, the operand at
  `(i, s · n2 + t)`: both sit at row-major position `i · N + s · n2 + t`. Generic in the extents.
-/
import Idealize.ShloMosaic.Lib.Pipeline.Value
import Idealize.ShloMosaic.Lib.ValueIdx

namespace Cert.LibSplitLanes

open Idealize.ShloMosaic Idealize.ShloMosaic.ValueIdx

variable {α : Type}

/-- An `[a, N]` array with its trailing axis split into `[n1, n2]` reads, at `(i, s, t)`, the operand at `(i, q)` for
    `q = s · n2 + t`. -/
theorem shapeCast_ad_abc_apply {a n1 n2 N : ℕ} (x : (⟨2, ![a, N]⟩ : Shape).Idx → α)
    (h : (⟨2, ![a, N]⟩ : Shape).ShapeCasts ⟨3, ![a, n1, n2]⟩) (hN : N = n1 * n2)
    (i : Fin a) (s : Fin n1) (t : Fin n2) (q : Fin N) (hq : q.val = s.val * n2 + t.val) :
    shapeCast ⟨3, ![a, n1, n2]⟩ x h (ix3 i s t) = x (ix2 i q) :=
  shapeCast_apply x h _ _ (by
    rw [Shape.rowMajor_val_three, Shape.rowMajor_val_two]
    show i.val * N + q.val = (i.val * n1 + s.val) * n2 + t.val
    rw [hq, hN]
    ring)

/-- The way back: an `[a, n1, n2]` array with its two trailing axes merged into one of extent `N = n1 · n2` reads, at
    `(i, q)` with `q = s · n2 + t`, the operand at `(i, s, t)`. -/
theorem shapeCast_abc_ad_apply {a n1 n2 N : ℕ} (x : (⟨3, ![a, n1, n2]⟩ : Shape).Idx → α)
    (h : (⟨3, ![a, n1, n2]⟩ : Shape).ShapeCasts ⟨2, ![a, N]⟩) (hN : N = n1 * n2)
    (i : Fin a) (q : Fin N) (s : Fin n1) (t : Fin n2) (hq : q.val = s.val * n2 + t.val) :
    shapeCast ⟨2, ![a, N]⟩ x h (ix2 i q) = x (ix3 i s t) :=
  shapeCast_apply x h _ _ (by
    rw [Shape.rowMajor_val_three, Shape.rowMajor_val_two]
    show (i.val * n1 + s.val) * n2 + t.val = i.val * N + q.val
    rw [hq, hN]
    ring)

end Cert.LibSplitLanes
-- ==== Proof.Bridge.lean ====
/-
  The two programs compute one function: entry by entry, on real inputs.

  The kernel's output at `(b, q)`, with `q = s · 64 + t`, is
      max ((∑ x[b,k]² + (0 + ∑ w[s,t,k]²)) - 2 · ∑ x[b,k]·w[s,t,k]) 0
  and the reference's result at `(b, s, t)` is `0 + ∑ (w[s,t,k] - x[b,k])²`. On real entries the two are equal
  (`a² + b² - 2ab = (b - a)²`, and a sum of squares is nonnegative); the kernel's result is its output viewed as
  `[1024, 64, 64]`, which reads `(b, s, t)` at `(b, s · 64 + t)`.
-/
import proofs.«159707_j85787676770973_2_alg».proof.Proof.KernelTable
import proofs.«159707_j85787676770973_2_alg».proof.Proof.HostPrefix
import proofs.«159707_j85787676770973_2_alg».proof.Proof.ReferenceEntry
import proofs.«159707_j85787676770973_2_alg».proof.Proof.SquaredDistance
import proofs.«159707_j85787676770973_2_alg».proof.Proof.LibSplitLanes

noncomputable section

namespace Cert.Bridge

open Idealize.ShloMosaic Idealize.ShloMosaic.ValueIdx
open Cert.KernelIdeal (S1024x64 S64x64x64 S4096x64 S1x4096 S1024x4096 S1024x64x64)

/-- The kernel's result, as a function of its two arguments. -/
def result (x : S1024x64.Idx → EReal) (w : S64x64x64.Idx → EReal) : S1024x64x64.Idx → EReal :=
  shapeCast S1024x64x64
    (Cert.KernelIdeal.Table.table x (Cert.KernelIdeal.HostPrefix.rows w) (Cert.KernelIdeal.HostPrefix.norms w))
    Cert.KernelIdeal.Gen.shapeCasts_S1024x4096_S1024x64x64

/-- One entry: the expanded, clamped form against the squared distance. -/
theorem entry_eq (x : S1024x64.Idx → EReal) (w : S64x64x64.Idx → EReal)
    (hx : ∀ i, ∃ r : ℝ, x i = (r : EReal)) (hw : ∀ i, ∃ r : ℝ, w i = (r : EReal))
    (b : Fin 1024) (s t : Fin 64) (q : Fin 4096) (hq : q.val = s.val * 64 + t.val) :
    Cert.KernelIdeal.Table.entry x (Cert.KernelIdeal.HostPrefix.rows w) (Cert.KernelIdeal.HostPrefix.norms w) b q
      = Cert.ReferenceIdeal.Read.val_main_v6 (F := Ideal) x w (ix3 b s t) := by
  choose a ha using fun k : Fin 64 => hx (ix2 b k)
  choose d hd using fun k : Fin 64 => hw (ix3 s t k)
  rw [Cert.ReferenceIdeal.RefValue.result_apply]
  unfold Cert.KernelIdeal.Table.entry
  rw [Cert.KernelIdeal.HostPrefix.norms_apply]
  simp only [fun k => Cert.KernelIdeal.HostPrefix.rows_apply w q k s t hq, ha, hd,
    Cert.SquaredDistance.ofBits_two, Ideal.ofBits_zero_f32]
  exact Cert.SquaredDistance.clamp_expand_eq_sum_sq a d

/-- The whole result: the kernel's is the reference's, on real inputs. -/
theorem result_eq (x : S1024x64.Idx → EReal) (w : S64x64x64.Idx → EReal)
    (hx : ∀ i, ∃ r : ℝ, x i = (r : EReal)) (hw : ∀ i, ∃ r : ℝ, w i = (r : EReal)) :
    result x w = Cert.ReferenceIdeal.Read.val_main_v6 (F := Ideal) x w := by
  funext i
  obtain ⟨b, s, t, rfl⟩ : ∃ (b : Fin 1024) (s t : Fin 64), i = ix3 b s t := ⟨i 0, i 1, i 2, eq_ix3 i⟩
  have hlt : s.val * 64 + t.val < 4096 := by omega
  unfold result
  refine (Cert.LibSplitLanes.shapeCast_ad_abc_apply _ _ rfl b s t ⟨s.val * 64 + t.val, hlt⟩ rfl).trans ?_
  exact entry_eq x w hx hw b s t _ rfl

end Cert.Bridge

end
-- ==== Proof.KernelRun.lean ====
/-
  The kernel's run, read: its result array as one function of its two arguments.

  After the region the output array holds `table` of the input, the regrouped weights and the row of norms (all three
  functions of the arguments), and the one host operation after the region views that `[1024, 4096]` array as
  `[1024, 64, 64]`. The arguments end as they were.
-/
import proofs.«159707_j85787676770973_2_alg».proof.Proof.Gen.KernelIdeal.Frame
import proofs.«159707_j85787676770973_2_alg».proof.Proof.KernelTable
import proofs.«159707_j85787676770973_2_alg».proof.Proof.HostPrefix
import proofs.«159707_j85787676770973_2_alg».proof.Proof.Bridge
import Idealize.ShloMosaic.Lib.StableHlo.Run

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The output array after the region, as a function of the arguments. -/
theorem output_eq (c : Dev nD) :
    (Pipeline.withArrays (cfgs 0).spec c (V0 m c) (fun w => (dats m 0 c).arrAt w (cfgs 0).N) (Proc.devRef .tc main_v4)
        : S1024x4096.Idx → EReal)
      = Table.table (m ((c : Thread nD τ).loc main_arg0)) (HostPrefix.rows (m ((c : Thread nD τ).loc main_arg1)))
          (HostPrefix.norms (m ((c : Thread nD τ).loc main_arg1))) :=
  (Pipeline.withArrays_arr spec0 launch0.win.arr_inj c _ _ 3).trans ((Table.final m c).trans (by
    rw [V_main_arg0, HostPrefix.V_rows, HostPrefix.V_norms]))

/-- The result array after the host operation that follows the region. -/
theorem tail_eq (c : Dev nD) :
    (Pipeline.afterTail₀ cfgs (dats m) 0 (V0 m) [hostOps1] c main_v5 : S1024x64x64.Idx → EReal)
      = Cert.Bridge.result (m ((c : Thread nD τ).loc main_arg0)) (m ((c : Thread nD τ).loc main_arg1)) := by
  unfold Pipeline.afterTail₀
  show StableHlo.after hostOps1 _ (Proc.devRef .tc main_v5) = _
  after_results
  unfold Cert.Bridge.result
  funext i
  exact congrFun (congrArg (fun T : S1024x4096.Idx → EReal => shapeCast S1024x64x64 T shapeCasts_S1024x4096_S1024x64x64)
    (output_eq m c)) i

/-- THE RUN: every weakly fair execution terminates with the result array at `Bridge.result` of the arguments, and
    the arguments unchanged. -/
theorem run : θ_run defs (onTc (τ := τ) (main (F := Ideal))) ⟨m, fun _ => 0, ρ⟩ fun r => ∀ c : Dev nD,
      r.2.mem ((c : Thread nD τ).loc main_v5)
        = Cert.Bridge.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Run

end
-- ==== Proof.RealInputs.lean ====
/-
  From the precondition to real entries.

  The precondition says that `|x| < +∞` at every entry of both inputs, all the comparisons conjoined. On the extended reals
  `|x| = max x (-x)` is `+∞` at both infinities, so every entry is a real number.
-/
import proofs.«159707_j85787676770973_2_alg».proof.Pre_finite_inputs
import proofs.«159707_j85787676770973_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs
open Idealize.ShloMosaic Idealize.ShloMosaic.ValueIdx

instance : Subsingleton S_.Idx := ⟨fun a b => funext fun d => d.elim0⟩

/-- The word `0x7F800000` is `+∞`. -/
theorem ofBits_inf : Ideal.ofBits .f32 0x7F800000#32 = ⊤ := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition every entry of both inputs is a real number. -/
theorem real_of_pre [Facts] (x : FVec Ideal S1024x64 .f32) (w : FVec Ideal S64x64x64 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨h1, h2⟩ := IntOp.andi_eq_one.1 h0
  constructor
  · intro i
    have e := Host.reduce_andi_all _ _ _ _ ix0 h1 i
    have e' : Ideal.cmp .olt (max (x i) (-(x i))) (Ideal.ofBits .f32 0x7F800000#32) = 1#1 := e
    rw [ofBits_inf] at e'
    exact real_of_abs_lt_top (x i) e'
  · intro i
    have e := Host.reduce_andi_all _ _ _ _ ix0 h2 i
    have e' : Ideal.cmp .olt (max (w i) (-(w i))) (Ideal.ofBits .f32 0x7F800000#32) = 1#1 := e
    rw [ofBits_inf] at e'
    exact real_of_abs_lt_top (w i) e'

end Cert.Pre_finite_inputs.Finite

end
-- ==== Proof.lean ====
/-
  Squared distances to a grid of weight rows: `out[b, s, t] = ∑ k, (w[s, t, k] - x[b, k])²` for `x : f32[1024, 64]` and
  `w : f32[64, 64, 64]`.

  The reference subtracts, squares and sums over the feature axis. The kernel expands the square: the host regroups the
  weights into 4096 rows and sums each row's squares once; each of four grid points takes 256 input rows, sums their
  squares, forms the cross term `∑ k, x[b,k] · w[q,k]` as one matrix product, and writes
  `max ((∑ x² + ∑ w²) - 2 · cross) 0`; the host views the `[1024, 4096]` output as `[1024, 64, 64]`.

  At the ideal values (floats extended reals, operations exact, changes of format the identity) the two agree on finite
  inputs, which the precondition gives: termwise `a² + b² - 2ab = (b - a)²` on the reals, and a sum of squares is
  nonnegative, so the clamp at zero is the identity. (With an infinite entry the two sides part ways, so the
  precondition is used.) The pass from the kernel to its idealization rewrote nothing.

  The parts: `SquaredDistance` (the law on the reals, in the extended reals), `ReferenceEntry` (the reference at an
  entry), `KernelBody` (the body at an entry of its block), `HostPrefix` (the regrouped weights and their norms),
  `KernelTable` (the output array after the region, from the four blocks), `Bridge` (the two results are one function),
  `KernelRun` (the kernel's run through the final view), `RealInputs` (the precondition gives real entries).
-/
import proofs.«159707_j85787676770973_2_alg».proof.Defs
import proofs.«159707_j85787676770973_2_alg».proof.Proof.Gen.Kernel
import proofs.«159707_j85787676770973_2_alg».proof.Proof.Gen.Kernel.Frame
import proofs.«159707_j85787676770973_2_alg».proof.Proof.Gen.KernelIdeal
import proofs.«159707_j85787676770973_2_alg».proof.Proof.Gen.KernelIdeal.Frame
import proofs.«159707_j85787676770973_2_alg».proof.Proof.Gen.ReferenceIdeal
import proofs.«159707_j85787676770973_2_alg».proof.Proof.Gen.ReferenceIdeal.Run
import proofs.«159707_j85787676770973_2_alg».proof.Proof.Gen.ReferenceIdeal.Read
import proofs.«159707_j85787676770973_2_alg».proof.Proof.Gen.Pre_finite_inputs
import proofs.«159707_j85787676770973_2_alg».proof.Proof.KernelRun
import proofs.«159707_j85787676770973_2_alg».proof.Proof.RealInputs
import proofs.«159707_j85787676770973_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the idealized kernel and the idealized reference end with one result: the expanded, clamped form
    is the squared distance, entry by entry. -/
theorem algebraic : Cert.algebraic_KernelIdeal_ReferenceIdeal := by
  intro m ρ m' ρ' hpre hagree
  refine ⟨fun c => Cert.Bridge.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Finite.real_of_pre _ _ (hpre c)
  rw [(hagree c).1, (hagree c).2]
  exact (Cert.ReferenceIdeal.Read.val_main_v6_eq _ _).trans (Cert.Bridge.result_eq _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
